-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384 : Shape := ⟨2, ![1024, 16384]⟩
abbrev S8192x16384 : Shape := ⟨2, ![8192, 16384]⟩
abbrev S8192 : Shape := ⟨1, ![8192]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S8192x16384 : S_.BroadcastsInDim S8192x16384 (![] : Fin 0 → Fin S8192x16384.rank)
  reducesTo_S8192x16384_S_d0_1 : S8192x16384.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192x16384 1) : IVec S_ 1 :=
  let main_c_5 : IVec S_ 1 := constantI S_ 1 1#1
  let main_v17 : IVec S_ 1 := (fun x v => Host.reduce IntOp.andi x v reducesTo_S8192x16384_S_d0_1 h_S_) main_v16 main_c_5
  let main_v18 : IVec S_ 1 := andi main_v13 main_v17
  main_v18

def fn {F : FTy → Type} [FloatOps F] (main_arg0 : FVec F S1024x16384 .f32) (main_arg1 : FVec F S8192x16384 .f32) (main_arg2 : FVec F S8192 .f32) (main_arg3 : FVec F S8192x16384 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S8192x16384 .f32 := Host.absf main_arg1
  let main_cst_0 : FVec F S_ .f32 := constant S_ .f32 0x7F800000#32
  let main_v5 : FVec F S8192x16384 .f32 := broadcastInDim S8192x16384 ![] bcast_S_S8192x16384 main_cst_0
  let main_v6 : IVec S8192x16384 1 := cmpf .olt main_v4 main_v5
  let main_c_1 : IVec S_ 1 := constantI S_ 1 1#1
  let main_v7 : IVec S_ 1 := (fun x v => Host.reduce IntOp.andi x v reducesTo_S8192x16384_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x16384 .f32 := Host.absf main_arg3
  let main_cst_4 : FVec F S_ .f32 := constant S_ .f32 0x7F800000#32
  let main_v15 : FVec F S8192x16384 .f32 := broadcastInDim S8192x16384 ![] bcast_S_S8192x16384 main_cst_4
  let main_v16 : IVec S8192x16384 1 := cmpf .olt main_v14 main_v15
  fn_part1 (F := F) main_v13 main_v16
-- ==== Kernel.lean ====
abbrev S1024x16384 : Shape := ⟨2, ![1024, 16384]⟩
abbrev S8192x16384 : Shape := ⟨2, ![8192, 16384]⟩
abbrev S8192 : Shape := ⟨1, ![8192]⟩
abbrev S1x8192 : Shape := ⟨2, ![1, 8192]⟩
abbrev S1024x8192 : Shape := ⟨2, ![1024, 8192]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 7
  | .vmem => 10
  | .smem => 0
  | _ => 0

abbrev bufTy : (tb : Table) → Fin (tcTables nBuf tb) → BufTy
  | .hbm, ⟨0, _⟩ => ⟨S1024x16384, .f32⟩
  | .hbm, ⟨1, _⟩ => ⟨S8192x16384, .f32⟩
  | .hbm, ⟨2, _⟩ => ⟨S8192, .f32⟩
  | .hbm, ⟨3, _⟩ => ⟨S8192x16384, .f32⟩
  | .hbm, ⟨4, _⟩ => ⟨S1024x16384, .bf16⟩
  | .hbm, ⟨5, _⟩ => ⟨S1x8192, .f32⟩
  | .hbm, ⟨6, _⟩ => ⟨S1024x8192, .f32⟩
  | .local _ .vmem, ⟨0, _⟩ => ⟨S1024x256, .bf16⟩
  | .local _ .vmem, ⟨1, _⟩ => ⟨S1024x256, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S8192_S1x8192 : S8192.ShapeCasts S1x8192
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S1024x2048_S1024x2048 : S1024x2048.ShapeCasts S1024x2048
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x16384.size a
  hwx0_0 : ∀ i : grid0.Coords, EltTy.bits .bf16 = 32 ∨ (Rect.block (s := S1024x16384) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x16384.size a
  hwx0_1 : ∀ i : grid0.Coords, EltTy.bits .f32 = 32 ∨ (Rect.block (s := S8192x16384) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x16384.size a
  hwx0_2 : ∀ i : grid0.Coords, EltTy.bits .f32 = 32 ∨ (Rect.block (s := S8192x16384) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x8192.size a
  hwx0_4 : ∀ i : grid0.Coords, EltTy.bits .f32 = 32 ∨ (Rect.block (s := S1024x8192) S1024x2048.size (cc0_transform_4 i) (hinb0_4 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x16384 : Shape := ⟨2, ![1024, 16384]⟩
abbrev S8192x16384 : Shape := ⟨2, ![8192, 16384]⟩
abbrev S8192 : Shape := ⟨1, ![8192]⟩
abbrev S1024x8192 : Shape := ⟨2, ![1024, 8192]⟩
abbrev S1x8192 : Shape := ⟨2, ![1, 8192]⟩

abbrev nBuf : Space → Nat
  | .hbm => 9
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S8192x16384, .f32⟩
  | .hbm, ⟨2, _⟩ => ⟨S8192, .f32⟩
  | .hbm, ⟨3, _⟩ => ⟨S8192x16384, .f32⟩
  | .hbm, ⟨4, _⟩ => ⟨S8192x16384, .f32⟩
  | .hbm, ⟨5, _⟩ => ⟨S1024x8192, .f32⟩
  | .hbm, ⟨6, _⟩ => ⟨S1x8192, .f32⟩
  | .hbm, ⟨7, _⟩ => ⟨S1024x8192, .f32⟩
  | .hbm, ⟨8, _⟩ => ⟨S1024x8192, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  dot_S1024x16384_S8192x16384_S1024x8192_1_1_0_0_n_n_wf : DotDims.WF S1024x16384 S8192x16384 S1024x8192 [1] [1] [0] [0] [] []

variable [Facts₀]

def dot_S1024x16384_S8192x16384_S1024x8192_1_1_0_0_n_n : DotDims S1024x16384 S8192x16384 S1024x8192 where
  lhsContracting := [1]
  rhsContracting := [1]
  lhsNonContracting := [0]
  rhsNonContracting := [0]
  lhsBatch := []
  rhsBatch := []
  wf := dot_S1024x16384_S8192x16384_S1024x8192_1_1_0_0_n_n_wf

class Facts : Prop extends Facts₀ where

variable [Facts]
-- ==== Proof.LibMatT.lean ====
/-
  A matrix product with BOTH operands contracted on their second axis (x · wᵀ), read at an entry, at the exact
  instance: for the dimension numbers "contract the left operand's second axis with the right operand's second
  axis", entry (p, q) of the product of an M×K by an N×K array into a zero accumulator is ∑ₖ x (p, k) · w (q, k);
  the host's product of the same operands is the same sum.
-/
import Idealize.ShloMosaic.Lib.ValueIdx
import Idealize.ShloMosaic.PureOps.Ideal.Laws

noncomputable section

namespace Cert.LibMatT

open Idealize.ShloMosaic Idealize.ShloMosaic.ValueIdx

variable {M K N : ℕ} {φ₁ φ₂ : FTy}

/-- The left operand's index at output (p, q) and contraction coordinate k is (p, k). -/
theorem transposedRhs_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 p q) _).trans hk

/-- The right operand's index at output (p, q) and contraction coordinate k is (q, k). -/
theorem transposedRhs_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 p q) _).trans hk

/-- A kernel's product x · wᵀ into the zero accumulator, at (p, q). -/
theorem transposedRhs_matmul_apply (prec : Option ContractPrecision) (x : FVec Ideal ⟨2, ![M, K]⟩ φ₁) (w : FVec Ideal ⟨2, ![N, K]⟩ φ₂)
    (p : Fin M) (q : Fin N) :
    FloatOps.matmul (DotDims.transposedRhs M K N) prec x w (constant ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [transposedRhs_lhsIdx, transposedRhs_rhsIdx]

/-- The host's product x · wᵀ of the same operands, at (p, q). -/
theorem transposedRhs_dotGeneral_apply (prec : Option ContractPrecision) (sched : HostSchedule) (x : FVec Ideal ⟨2, ![M, K]⟩ φ₁)
    (w : FVec Ideal ⟨2, ![N, K]⟩ φ₂) (p : Fin M) (q : Fin N) :
    FloatOps.dotGeneral (DotDims.transposedRhs M K N) prec sched x w (ix2 p q) = ∑ k : Fin K, x (ix2 p k) * w (ix2 q k) := by
  rw [Ideal.dotGeneral_apply, ← Equiv.sum_comp (contrEquiv1 (DotDims.transposedRhs M K N) K rfl rfl).symm]
  refine Finset.sum_congr rfl fun k _ => ?_
  rw [transposedRhs_lhsIdx, transposedRhs_rhsIdx]

end Cert.LibMatT

end
-- ==== Proof.Tile.lean ====
/-
  What one grid point does to its 1024×2048 output tile, read at an entry, on the extended reals.

  The first point of a run of 64 seeds the tile with the bias: entry (p, q) of the seed is the bias block's entry
  (0, q), whatever the row p. Every point then adds to the tile the product of its 1024×256 block of x with the
  transpose of the entrywise product of its 2048×256 blocks of the weights and of the mask: entry (p, q) gains
  ∑ₖ x (p, k) · (w (q, k) · mask (q, k)), k over the block's 256 columns. A change of float format is the identity
  on the extended reals, and a product into the zero accumulator is the plain sum.
-/
import proofs.«144448_j21045339750608_2_alg».proof.Proof.Gen.KernelIdeal.Skeleton
import proofs.«144448_j21045339750608_2_alg».proof.Proof.LibMatT
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The seed: the 1×2048 bias block laid along every one of the 1024 rows. -/
theorem seed_apply (b : Vec Ideal S1x2048 .f32) (p : Fin 1024) (q : Fin 2048) :
    k0_pay1 b (ix2 p q) = b (ix2 (0 : Fin 1) q) := by
  unfold k0_pay1
  simp only [shapeCast_self]
  refine broadcastTo_apply _ _ (ix2 p q) (ix2 (0 : Fin 1) q) fun a => ?_
  match a with
  | ⟨0, _⟩ => rfl
  | ⟨1, _⟩ => rfl

/-- The step: the tile's entry (p, q) gains the 256-term sum of x (p, k) · (w (q, k) · mask (q, k)). -/
theorem step_apply (x : Vec Ideal S1024x256 .bf16) (w msk : Vec Ideal S2048x256 .f32) (acc : Vec Ideal S1024x2048 .f32)
    (p : Fin 1024) (q : Fin 2048) :
    k0_pay2 x w msk acc (ix2 p q) = acc (ix2 p q) + ∑ k : Fin 256, x (ix2 p k) * (w (ix2 q k) * msk (ix2 q k)) := by
  unfold k0_pay2
  simp only [shapeCast_self]
  rw [addf_apply]
  refine congrArg (acc (ix2 p q) + ·) ?_
  exact Cert.LibMatT.transposedRhs_matmul_apply (M := 1024) (K := 256) (N := 2048) none x _ p q

end Cert.KernelIdeal.Tile

end
-- ==== Proof.LibRowBias.lean ====
/-
  A vector of length N laid along the second axis of a two-axis array, read at an index: reshaped to 1×N it is the
  row `rowOf b`; broadcast to 1×N along axis 1 and then to M×N along both axes it reads, at (p, q), the vector at q.
-/
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

variable {α : Type} {M N : ℕ}

/-- The 1×N array whose one row is the vector `b`. -/
def rowOf (b : (⟨1, ![N]⟩ : Shape).Idx → α) : (⟨2, ![1, N]⟩ : Shape).Idx → α :=
  fun j => b (ix1 ⟨(j 1).val, (j 1).isLt⟩)

theorem rowOf_ix2 (b : (⟨1, ![N]⟩ : Shape).Idx → α) (u : Fin 1) (q : Fin N) : rowOf b (ix2 u q) = b (ix1 q) := rfl

/-- A length-N vector reshaped to 1×N is its row. -/
theorem reshape_eq_rowOf (b : (⟨1, ![N]⟩ : Shape).Idx → α) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  rw [shapeCast_a_1a_apply b h u q, rowOf_ix2]

/-- The vector broadcast along axis 1 to 1×N, read at (u, q). -/
theorem bcast_1N_apply (b : (⟨1, ![N]⟩ : Shape).Idx → α) (h : (⟨1, ![N]⟩ : Shape).BroadcastsInDim ⟨2, ![1, N]⟩ ![1])
    (u : Fin 1) (q : Fin N) : broadcastInDim ⟨2, ![1, N]⟩ ![1] h b (ix2 u q) = b (ix1 q) := by
  refine broadcastInDim_apply ![1] h b (ix2 u q) (ix1 q) fun ax => ?_
  match ax with
  | ⟨0, _⟩ =>
    show q.val = if N = 1 then 0 else q.val
    split
    · have := q.isLt; omega
    · rfl

/-- A 1×N array broadcast along both axes to M×N, read at (p, q), is its row at q. -/
theorem bcast_MN_apply (r : (⟨2, ![1, N]⟩ : Shape).Idx → α) (h : (⟨2, ![1, N]⟩ : Shape).BroadcastsInDim ⟨2, ![M, N]⟩ ![0, 1])
    (p : Fin M) (q : Fin N) : broadcastInDim ⟨2, ![M, N]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if N = 1 then 0 else q.val
    split
    · have := q.isLt; omega
    · rfl

/-- The vector broadcast to 1×N and then to M×N reads, at (p, q), the vector at q. -/
theorem bcast_row_apply (b : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [bcast_MN_apply, bcast_1N_apply]

end Cert.LibRowBias

end
-- ==== Proof.Blocks.lean ====
/-
  The four input blocks of grid point t of the 4×64 grid, read at an entry as entries of the argument arrays.

  Point t = 64·n + s works on output columns 2048·n … 2048·n + 2047 and on input features 256·s … 256·s + 255:
  its block of x holds x (p, 256·s + k); its blocks of the weights and of the mask hold row 2048·n + q at those
  features; its block of the bias row holds the bias at 2048·n + q. Before the grid runs, x has only changed float
  format (the identity on the extended reals) and the bias vector has only been laid out as one row.
-/
import proofs.«144448_j21045339750608_2_alg».proof.Proof.Gen.KernelIdeal.Frame
import proofs.«144448_j21045339750608_2_alg».proof.Proof.LibRowBias
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Which block of each array point t fetches: the feature run t mod 64 of x (all rows), the column tile t / 64 and
    feature run t mod 64 of the weights and of the mask, the column tile t / 64 of the bias row. -/
theorem index_facts : ∀ t : Fin cfg0.N,
    win0_0.index t (0 : Fin 2) = 0 ∧ win0_0.index t (1 : Fin 2) = t.val % 64
    ∧ win0_1.index t (0 : Fin 2) = t.val / 64 ∧ win0_1.index t (1 : Fin 2) = t.val % 64
    ∧ win0_2.index t (0 : Fin 2) = t.val / 64 ∧ win0_2.index t (1 : Fin 2) = t.val % 64
    ∧ win0_3.index t (0 : Fin 2) = 0 ∧ win0_3.index t (1 : Fin 2) = t.val / 64 :=
  (by decide +kernel : ∀ t : Fin grid0.N, _)

/-- When the grid starts, the narrowed copy of x is x with its float format changed. -/
theorem entry_x (c : Dev nD) :
    (V m c main_v0 : S1024x16384.Idx → EReal)
      = truncf (F := Ideal) (s := S1024x16384) (φ := .f32) .bf16 (m ((c : Thread nD τ).loc main_arg0)) Facts₀.bitsLt_bf16_f32 := by
  dsimp only [Gen.V, Gen.hostOps0]; after_results

/-- When the grid starts, the 1×8192 bias row is the bias vector reshaped. -/
theorem entry_bias (c : Dev nD) :
    (V m c main_v1 : S1x8192.Idx → EReal) = shapeCast S1x8192 (m ((c : Thread nD τ).loc main_arg2)) Facts₀.shapeCasts_S8192_S1x8192 := by
  dsimp only [Gen.V, Gen.hostOps0]; after_results; rfl

/-- Entry (p, k) of point t's block of x is x (p, 256·(t mod 64) + k). -/
theorem xblock_apply (c : Dev nD) (t : Fin cfg0.N) (p : Fin 1024) (k : Fin 256) (a : Fin 16384)
    (ha : a.val = k.val + 256 * (t.val % 64)) :
    (iblk m c 0 t : Vec Ideal S1024x256 .bf16) (ix2 p k) = m ((c : Thread nD τ).loc main_arg0) (ix2 p a) := by
  obtain ⟨e0, e1, -⟩ := index_facts t
  unfold iblk
  rw [View.read_apply]
  show V m c main_v0 _ = _
  rw [entry_x, truncf_apply]
  congr 1
  funext d
  apply Fin.ext
  match d with
  | ⟨0, _⟩ => show win0_0.index t (0 : Fin 2) * 1024 + 1 * p.val = p.val; rw [e0]; omega
  | ⟨1, _⟩ => show win0_0.index t (1 : Fin 2) * 256 + 1 * k.val = a.val; rw [e1, ha]; omega

/-- Entry (q, k) of point t's block of the weights is w (2048·(t / 64) + q, 256·(t mod 64) + k). -/
theorem wblock_apply (c : Dev nD) (t : Fin cfg0.N) (q : Fin 2048) (k : Fin 256) (o : Fin 8192) (a : Fin 16384)
    (ho : o.val = q.val + 2048 * (t.val / 64)) (ha : a.val = k.val + 256 * (t.val % 64)) :
    (iblk m c 1 t : Vec Ideal S2048x256 .f32) (ix2 q k) = m ((c : Thread nD τ).loc main_arg1) (ix2 o a) := by
  obtain ⟨-, -, e0, e1, -⟩ := index_facts t
  unfold iblk
  rw [View.read_apply]
  show V m c main_arg1 _ = _
  rw [V_main_arg1]
  congr 1
  funext d
  apply Fin.ext
  match d with
  | ⟨0, _⟩ => show win0_1.index t (0 : Fin 2) * 2048 + 1 * q.val = o.val; rw [e0, ho]; omega
  | ⟨1, _⟩ => show win0_1.index t (1 : Fin 2) * 256 + 1 * k.val = a.val; rw [e1, ha]; omega

/-- Entry (q, k) of point t's block of the mask is mask (2048·(t / 64) + q, 256·(t mod 64) + k). -/
theorem mblock_apply (c : Dev nD) (t : Fin cfg0.N) (q : Fin 2048) (k : Fin 256) (o : Fin 8192) (a : Fin 16384)
    (ho : o.val = q.val + 2048 * (t.val / 64)) (ha : a.val = k.val + 256 * (t.val % 64)) :
    (iblk m c 2 t : Vec Ideal S2048x256 .f32) (ix2 q k) = m ((c : Thread nD τ).loc main_arg3) (ix2 o a) := by
  obtain ⟨-, -, -, -, e0, e1, -⟩ := index_facts t
  unfold iblk
  rw [View.read_apply]
  show V m c main_arg3 _ = _
  rw [V_main_arg3]
  congr 1
  funext d
  apply Fin.ext
  match d with
  | ⟨0, _⟩ => show win0_2.index t (0 : Fin 2) * 2048 + 1 * q.val = o.val; rw [e0, ho]; omega
  | ⟨1, _⟩ => show win0_2.index t (1 : Fin 2) * 256 + 1 * k.val = a.val; rw [e1, ha]; omega

/-- Entry (0, q) of point t's block of the bias row is the bias at 2048·(t / 64) + q. -/
theorem bblock_apply (c : Dev nD) (t : Fin cfg0.N) (q : Fin 2048) (o : Fin 8192)
    (ho : o.val = q.val + 2048 * (t.val / 64)) :
    (iblk m c 3 t : Vec Ideal S1x2048 .f32) (ix2 (0 : Fin 1) q) = m ((c : Thread nD τ).loc main_arg2) (ix1 o) := by
  obtain ⟨-, -, -, -, -, -, e0, e1⟩ := index_facts t
  unfold iblk
  rw [View.read_apply]
  show V m c main_v1 _ = _
  rw [entry_bias, Cert.LibRowBias.reshape_eq_rowOf]
  show m ((c : Thread nD τ).loc main_arg2) (ix1 _) = _
  congr 1
  funext d
  apply Fin.ext
  match d with
  | ⟨0, _⟩ => show win0_3.index t (1 : Fin 2) * 2048 + 1 * q.val = o.val; rw [e1, ho]; omega

end Cert.KernelIdeal.Blocks

end
-- ==== Proof.LibSumSplit.lean ====
/-
  Three facts about finite sums in a commutative monoid, none of which needs more than commutativity and
  associativity of the addition (so they hold for the extended reals, infinities included).
-/
import Idealize.ShloMosaic.Lib.ValueIdx
import Mathlib.Algebra.BigOperators.Fin

noncomputable section

open scoped BigOperators

namespace Cert.Lib.SumSplit

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Position `b` of block `t`, among `N` consecutive blocks of `B` positions each: `B·t + b`. -/
def blockPos {N B : Nat} (t : Fin N) (b : Fin B) : Fin (N * B) := finProdFinEquiv (t, b)

theorem blockPos_val {N B : Nat} (t : Fin N) (b : Fin B) : (blockPos t b).val = b.val + B * t.val := rfl

/-- A sum over `N·B` consecutive positions is the sum, over the `N` blocks, of each block's `B` terms. -/
theorem sum_blocks {M : Type*} [AddCommMonoid M] (N B : Nat) (g : Fin (N * B) → M) :
    ∑ a, g a = ∑ t : Fin N, ∑ b : Fin B, g (blockPos t b) := by
  rw [← Equiv.sum_comp finProdFinEquiv g, Fintype.sum_prod_type]
  rfl

/-- A running total that starts at the first term and adds the next term at every step, for the first `K` steps, is at
    step `n` the sum of the terms `0 … n`. -/
theorem running_sum {M : Type*} [AddCommMonoid M] (K : Nat) (acc term : Nat → M) (h0 : acc 0 = term 0)
    (hs : ∀ n, n + 1 < K → acc (n + 1) = acc n + term (n + 1)) (n : Nat) (hn : n < K) :
    acc n = ∑ t ∈ Finset.range (n + 1), term t := by
  induction n with
  | zero => simp [h0]
  | succ n ih => rw [hs n hn, ih (Nat.lt_of_succ_lt hn), Finset.sum_range_succ _ (n + 1)]

end Cert.Lib.SumSplit

end
-- ==== Proof.MaskedLinear.lean ====
/-
  The masked linear layer as one function of its four arguments on the extended reals:

      layer x w mask b (p, o) = b o + ∑ᵢ x (p, i) · (w (o, i) · mask (o, i)),   i over the 16384 input features,

  and the one law that joins the two ways of computing it. Computed tile by tile, the 16384 features are cut into 64
  consecutive runs of 256; the running value starts at the bias and gains one run's sum after the other. Regrouping a
  finite sum needs only that addition is commutative and associative, which it is on the extended reals, infinities
  included: no finiteness of the data enters.
-/
import Idealize.ShloMosaic.Lib.ValueIdx
import proofs.«144448_j21045339750608_2_alg».proof.Proof.LibSumSplit

noncomputable section

open scoped BigOperators

namespace Cert.MaskedLinear

open Idealize.ShloMosaic Idealize.ShloMosaic.ValueIdx Cert.Lib.SumSplit

/-- Entry (p, o) of the layer's result: the bias at o plus the sum over the input features. -/
def layer (x : (⟨2, ![1024, 16384]⟩ : Shape).Idx → EReal) (w msk : (⟨2, ![8192, 16384]⟩ : Shape).Idx → EReal)
    (b : (⟨1, ![8192]⟩ : Shape).Idx → EReal) : (⟨2, ![1024, 8192]⟩ : Shape).Idx → EReal :=
  fun i => b (ix1 (i 1)) + ∑ a : Fin 16384, x (ix2 (i 0) a) * (w (ix2 (i 1) a) * msk (ix2 (i 1) a))

/-- Feature a's term of entry (p, o). -/
def term (x : (⟨2, ![1024, 16384]⟩ : Shape).Idx → EReal) (w msk : (⟨2, ![8192, 16384]⟩ : Shape).Idx → EReal)
    (p : Fin 1024) (o : Fin 8192) (a : Fin 16384) : EReal :=
  x (ix2 p a) * (w (ix2 o a) * msk (ix2 o a))

theorem layer_ix2 (x : (⟨2, ![1024, 16384]⟩ : Shape).Idx → EReal) (w msk : (⟨2, ![8192, 16384]⟩ : Shape).Idx → EReal)
    (b : (⟨1, ![8192]⟩ : Shape).Idx → EReal) (p : Fin 1024) (o : Fin 8192) :
    layer x w msk b (ix2 p o) = b (ix1 o) + ∑ a : Fin 16384, term x w msk p o a := rfl

/-- Feature number 256·s + k: position k of run s. -/
def feature (s : Fin 64) (k : Fin 256) : Fin 16384 := blockPos s k

theorem feature_val (s : Fin 64) (k : Fin 256) : (feature s k).val = k.val + 256 * s.val := rfl

/-- A start value plus 64 terms, the s-th of which is the sum of run s, is the start value plus the sum over all
    16384 features. -/
theorem runs_join {M : Type*} [AddCommMonoid M] (z : M) (g : Fin 16384 → M) (T : ℕ → M)
    (hT : ∀ s : Fin 64, T s.val = ∑ k : Fin 256, g (feature s k)) :
    z + ∑ s ∈ Finset.range 64, T s = z + ∑ a : Fin 16384, g a := by
  have h : ∑ a : Fin 16384, g a = ∑ s : Fin 64, ∑ k : Fin 256, g (feature s k) := sum_blocks 64 256 g
  rw [Finset.sum_range, h]
  exact congrArg (z + ·) (Finset.sum_congr rfl fun s _ => hT s)

end Cert.MaskedLinear

end
-- ==== Proof.Whole.lean ====
/-
  The kernel's whole result is the masked linear layer.

  The output tile of column tile n is carried through the 64 grid points 64·n … 64·n + 63: the first seeds it with the
  bias and adds its 256 features' products, each later one adds its own 256 features' products. Entry (p, q) of the
  tile after the last point is therefore the bias at o = 2048·n + q plus, run after run, the sums of
  x (p, i) · (w (o, i) · mask (o, i)) over the 64 consecutive runs of 256 features — which, regrouped, is the bias plus
  the sum over all 16384 features: the layer at (p, o).
-/
import proofs.«144448_j21045339750608_2_alg».proof.Proof.Gen.KernelIdeal.Value
import proofs.«144448_j21045339750608_2_alg».proof.Proof.Tile
import proofs.«144448_j21045339750608_2_alg».proof.Proof.Blocks
import proofs.«144448_j21045339750608_2_alg».proof.Proof.MaskedLinear

noncomputable section

namespace Cert.KernelIdeal.Whole

open Cert.KernelIdeal Cert.KernelIdeal.Gen Idealize.ShloMosaic Idealize.ShloMosaic.TcCoe Idealize.SL.Sem Idealize.ShloMosaic.ValueIdx
open Cert.MaskedLinear

variable (m : (ℓ : Loc nD τ sig) → Buf (Elt Ideal) ℓ)

/-- What a point with blocks x, w, mask adds to entry i of its output tile: the sum, over the blocks' 256 features, of
    x · (w · mask). -/
def gainOf (x : Vec Ideal S1024x256 .bf16) (w msk : Vec Ideal S2048x256 .f32) (i : S1024x2048.Idx) : EReal :=
  ∑ k : Fin 256, x (ix2 (i 0) k) * (w (ix2 (i 1) k) * msk (ix2 (i 1) k))

theorem gainOf_ix2 (x : Vec Ideal S1024x256 .bf16) (w msk : Vec Ideal S2048x256 .f32) (p : Fin 1024) (q : Fin 2048) :
    gainOf x w msk (ix2 p q) = ∑ k : Fin 256, x (ix2 p k) * (w (ix2 q k) * msk (ix2 q k)) := rfl

/-- What grid point n adds to entry i of its output tile. (Past the grid's last point: nothing.) -/
def gain (c : Dev nD) (n : ℕ) (i : S1024x2048.Idx) : EReal :=
  if h : n < cfg0.N then gainOf (iblk m c 0 ⟨n, h⟩) (iblk m c 1 ⟨n, h⟩) (iblk m c 2 ⟨n, h⟩) i else 0

/-- One point's body adds its gain to whatever the tile held. -/
theorem body_adds (c : Dev nD) (n : ℕ) (h : n < cfg0.N) (acc : Vec Ideal S1024x2048 .f32) (i : S1024x2048.Idx) :
    k0_pay2 (iblk m c 0 ⟨n, h⟩) (iblk m c 1 ⟨n, h⟩) (iblk m c 2 ⟨n, h⟩) acc i = acc i + gain m c n i := by
  obtain ⟨p, q, rfl⟩ : ∃ (p : Fin 1024) (q : Fin 2048), i = ix2 p q := ⟨i 0, i 1, eq_ix2 i⟩
  refine (Tile.step_apply _ _ _ acc p q).trans ?_
  unfold gain
  rw [dif_pos h, gainOf_ix2]

/-- The tile of column tile n after its last point, at entry (p, q), is the layer at (p, 2048·n + q). -/
theorem tile_apply (c : Dev nD) (n : Fin 4) (h : 64 * n.val + 63 < cfg0.N) (p : Fin 1024) (q : Fin 2048) (o : Fin 8192)
    (ho : o.val = q.val + 2048 * n.val) :
    Pipeline.accAt (Value.reset4 m c) (Value.step4 m c) (64 * n.val) 63 h (ix2 p q)
      = layer (m ((c : Thread nD τ).loc main_arg0)) (m ((c : Thread nD τ).loc main_arg1)) (m ((c : Thread nD τ).loc main_arg3))
          (m ((c : Thread nD τ).loc main_arg2)) (ix2 p o) := by
  have hN : cfg0.N = 256 := N_0
  have hn := n.isLt
  have hb : 64 * n.val < cfg0.N := by omega
  rw [Pipeline.accAt_add_apply (Value.reset4 m c) (Value.step4 m c)
    (fun i => k0_pay1 (iblk m c 3 ⟨64 * n.val, hb⟩) i) (gain m c) (64 * n.val) 63
    (fun h' i => body_adds m c _ h' _ i) (fun k h' acc i _ _ => body_adds m c k h' acc i) 63 le_rfl h (ix2 p q)]
  rw [layer_ix2]
  have hz : k0_pay1 (iblk m c 3 ⟨64 * n.val, hb⟩) (ix2 p q) = m ((c : Thread nD τ).loc main_arg2) (ix1 o) := by
    refine (Tile.seed_apply _ p q).trans ?_
    exact Blocks.bblock_apply m c ⟨64 * n.val, hb⟩ q o (by show o.val = q.val + 2048 * (64 * n.val / 64); omega)
  rw [hz]
  refine runs_join _ (term (m ((c : Thread nD τ).loc main_arg0)) (m ((c : Thread nD τ).loc main_arg1))
      (m ((c : Thread nD τ).loc main_arg3)) p o) (fun s => gain m c (64 * n.val + s) (ix2 p q)) fun s => ?_
  have hs := s.isLt
  have ht : 64 * n.val + s.val < cfg0.N := by omega
  show gain m c (64 * n.val + s.val) (ix2 p q) = _
  unfold gain
  rw [dif_pos ht, gainOf_ix2]
  refine Finset.sum_congr rfl fun k _ => ?_
  have ha : (feature s k).val = k.val + 256 * ((64 * n.val + s.val) % 64) := by rw [feature_val]; omega
  have ho' : o.val = q.val + 2048 * ((64 * n.val + s.val) / 64) := by omega
  rw [Blocks.xblock_apply m c ⟨64 * n.val + s.val, ht⟩ p k (feature s k) ha,
    Blocks.wblock_apply m c ⟨64 * n.val + s.val, ht⟩ q k o (feature s k) ho' ha,
    Blocks.mblock_apply m c ⟨64 * n.val + s.val, ht⟩ q k o (feature s k) ho' ha]
  rfl

/-- The result array after the run is the layer of the four arguments. -/
theorem result_eq (c : Dev nD) :
    Value.G4 m c = layer (m ((c : Thread nD τ).loc main_arg0)) (m ((c : Thread nD τ).loc main_arg1))
      (m ((c : Thread nD τ).loc main_arg3)) (m ((c : Thread nD τ).loc main_arg2)) := by
  funext i
  have hi0 : (i 0).val < 1024 := (i 0).isLt
  have hi1 : (i 1).val < 8192 := (i 1).isLt
  have hN : cfg0.N = 256 := N_0
  have hr : Value.run4Of i = (i 1).val / 2048 := by
    show 4 * ((i 0).val / 1024 - 0) + 1 * ((i 1).val / 2048 - 0) = _
    have : (i 0).val / 1024 = 0 := by omega
    omega
  unfold Value.G4
  rw [dif_pos (by rw [hr, hN]; omega)]
  have e : ∀ (b : ℕ) (h : b + 63 < cfg0.N) (n : Fin 4) (h' : 64 * n.val + 63 < cfg0.N), b = 64 * n.val →
      Pipeline.accAt (Value.reset4 m c) (Value.step4 m c) b 63 h
        = Pipeline.accAt (Value.reset4 m c) (Value.step4 m c) (64 * n.val) 63 h' := by
    intro b h n h' hb; subst hb; rfl
  have hl : Value.loc4Of i = ix2 (⟨(i 0).val % 1024, Nat.mod_lt _ (by decide)⟩ : Fin 1024)
      (⟨(i 1).val % 2048, Nat.mod_lt _ (by decide)⟩ : Fin 2048) := by
    funext a
    match a with
    | ⟨0, _⟩ => rfl
    | ⟨1, _⟩ => rfl
  have hi : i = ix2 (⟨(i 0).val % 1024, Nat.mod_lt _ (by decide)⟩ : Fin 1024) (i 1) := by
    funext a
    apply Fin.ext
    match a with
    | ⟨0, _⟩ => show (i 0).val = (i 0).val % 1024; omega
    | ⟨1, _⟩ => rfl
  rw [e _ _ (⟨(i 1).val / 2048, by omega⟩ : Fin 4) (by show 64 * ((i 1).val / 2048) + 63 < cfg0.N; omega) (by rw [hr]), hl,
    tile_apply m c _ _ _ _ (i 1) (by show (i 1).val = (i 1).val % 2048 + 2048 * ((i 1).val / 2048); omega)]
  exact congrArg _ hi.symm

end Cert.KernelIdeal.Whole

end
-- ==== Proof.RefValue.lean ====
/-
  The reference, read at an entry, is the masked linear layer: it multiplies the weights by the mask entrywise,
  contracts x with the result over the features (entry (p, o) of the product is ∑ᵢ x (p, i) · (w (o, i) · mask (o, i))),
  and adds the bias laid along every row. Only the order of the two terms of the last addition differs from the
  layer as it is written down, and addition commutes.
-/
import proofs.«144448_j21045339750608_2_alg».proof.Proof.Gen.ReferenceIdeal
import proofs.«144448_j21045339750608_2_alg».proof.Proof.MaskedLinear
import proofs.«144448_j21045339750608_2_alg».proof.Proof.LibMatT
import proofs.«144448_j21045339750608_2_alg».proof.Proof.LibRowBias
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx

/-- The reference's result, as a term of its four arguments, is the layer. -/
theorem result_eq (x : FVec Ideal S1024x16384 .f32) (w msk : FVec Ideal S8192x16384 .f32) (b : FVec Ideal S8192 .f32) :
    addf (Host.dotGeneral dot_S1024x16384_S8192x16384_S1024x8192_1_1_0_0_n_n none x (mulf w msk))
      (broadcastInDim S1024x8192 ![0, 1] Facts₀.bcast_S1x8192_S1024x8192_0_1
        (broadcastInDim S1x8192 ![1] Facts₀.bcast_S8192_S1x8192_1 b))
    = Cert.MaskedLinear.layer x w msk b := by
  funext i
  obtain ⟨p, o, rfl⟩ : ∃ (p : Fin 1024) (o : Fin 8192), i = ix2 p o := ⟨i 0, i 1, eq_ix2 i⟩
  rw [addf_apply, Cert.LibRowBias.bcast_row_apply, Cert.MaskedLinear.layer_ix2, add_comm]
  refine congrArg (b (ix1 o) + ·) ?_
  exact Cert.LibMatT.transposedRhs_dotGeneral_apply (M := 1024) (K := 16384) (N := 8192) none .single x (mulf w msk) p o

end Cert.ReferenceIdeal.RefValue

end
-- ==== Proof.lean ====
/-
  A masked linear layer, out (p, o) = bias o + ∑ᵢ x (p, i) · (w (o, i) · mask (o, i)) over 1024 rows, 8192 output
  columns and 16384 input features, computed two ways.

  The kernel walks a 4×64 grid: column tile n (2048 columns) is held in one output tile through the 64 points of its
  run; the run's first point seeds the tile with the bias, and every point adds the product of its 256 features of x
  with the transposed entrywise product of its blocks of the weights and the mask. The reference multiplies the
  weights by the mask, contracts x with the result over all 16384 features at once, and adds the bias.

  On the extended reals both are the layer above. A change of float format is the identity there, a product into a zero
  accumulator is the plain sum of products, and the only law between the two sides is regrouping a finite sum (the 64
  runs of 256 features against all 16384 at once, and the bias added first or last), which needs commutativity and
  associativity of addition alone — so the finiteness of the inputs is never used.

  Modules: MaskedLinear (the layer and the regrouping law), Tile (one grid point's effect on its tile at an entry),
  Blocks (a point's input blocks as entries of the arguments), Whole (the kernel's result array is the layer), RefValue
  (the reference's result is the layer); LibMatT, LibRowBias, LibSumSplit hold the general facts about a product
  contracted on both second axes, a vector laid along rows, and sums taken block by block.
-/
import proofs.«144448_j21045339750608_2_alg».proof.Defs
import proofs.«144448_j21045339750608_2_alg».proof.Proof.Gen.Kernel.Frame
import proofs.«144448_j21045339750608_2_alg».proof.Proof.Gen.KernelIdeal.Value
import proofs.«144448_j21045339750608_2_alg».proof.Proof.Gen.Pre_finite_inputs
import proofs.«144448_j21045339750608_2_alg».proof.Proof.Gen.ReferenceIdeal.Run
import proofs.«144448_j21045339750608_2_alg».proof.Proof.Whole
import proofs.«144448_j21045339750608_2_alg».proof.Proof.RefValue
import Idealize.ShloMosaic.Adequacy
import Idealize.ShloMosaic.Init

noncomputable section

namespace Cert.Proof

open Idealize.ShloMosaic Idealize.SL.Sem

/-- The idealized kernel terminates without a fault and leaves its arguments as they were: its value run, with the
    result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference likewise. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x, the weights, the bias and the mask, both programs end with the layer of those four
    arrays in their result. -/
theorem algebraic_KernelIdeal_ReferenceIdeal : algebraic_KernelIdeal_ReferenceIdeal := by
  intro m ρ m' ρ' _ hagree
  refine ⟨fun c => Cert.KernelIdeal.Value.G4 m c, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, (hagree c).1, (hagree c).2.1, (hagree c).2.2.1, (hagree c).2.2.2]
  exact (Cert.ReferenceIdeal.RefValue.result_eq _ _ _ _).trans (Cert.KernelIdeal.Whole.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
